-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64x64 .f32) (main_arg4 : FVec F S64 .f32) (main_arg5 : FVec F S64x64 .f32) (main_arg6 : FVec F S64 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩

abbrev nBuf : Space → Nat
  | .hbm => 113
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x1600000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S_, .f32⟩
  | .hbm, ⟨26, _⟩ => ⟨S1700000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S64, .f32⟩
  | .hbm, ⟨31, _⟩ => ⟨S1x64, .f32⟩
  | .hbm, ⟨32, _⟩ => ⟨S100000x64, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1700000x1, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S_, .f32⟩
  | .hbm, ⟨71, _⟩ => ⟨S64, .f32⟩
  | .hbm, ⟨72, _⟩ => ⟨S1x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S1700000, .f32⟩
  | .hbm, ⟨93, _⟩ => ⟨S1700000x1, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x64, .f32⟩
  | .hbm, ⟨103, _⟩ => ⟨S1700000x64, .f32⟩
  | .hbm, ⟨104, _⟩ => ⟨S1700000x64, .f32⟩
  | .hbm, ⟨105, _⟩ => ⟨S_, .f32⟩
  | .hbm, ⟨106, _⟩ => ⟨S100000x64, .f32⟩
  | .hbm, ⟨107, _⟩ => ⟨S1700000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S1x64, .f32⟩
  | .hbm, ⟨112, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S64 : S_.BroadcastsInDim S64 (![] : Fin 0 → Fin S64.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  dot_S10000x128_S128x64_S10000x64_1_0_0_1_n_n_wf : DotDims.WF S10000x128 S128x64 S10000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v80) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v82) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x1600000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S_, .f32⟩
  | .hbm, ⟨26, _⟩ => ⟨S1700000, .f32⟩
  | .hbm, ⟨27, _⟩ => ⟨S100000, .f32⟩
  | .hbm, ⟨28, _⟩ => ⟨S100000, .f32⟩
  | .hbm, ⟨29, _⟩ => ⟨S100000x64, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S1700000, .f32⟩
  | .hbm, ⟨91, _⟩ => ⟨S1700000x1, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x64, .f32⟩
  | .hbm, ⟨102, _⟩ => ⟨S1700000x64, .f32⟩
  | .hbm, ⟨103, _⟩ => ⟨S_, .f32⟩
  | .hbm, ⟨104, _⟩ => ⟨S100000x64, .f32⟩
  | .hbm, ⟨105, _⟩ => ⟨S1700000x1, .i32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000x64, .f32⟩
  | .hbm, ⟨112, _⟩ => ⟨S100000x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call1_cst : Ref sig .tc := ⟨.hbm, 110, rfl⟩
abbrev main_call1_v0 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with its two results named.

  The program is five tiled kernels among stretches of host operations. Running it segment by segment leaves every
  buffer outside the scoped ones at the contents obtained by folding the segments over the launch memory: a host
  stretch applies its operations, a kernel replaces each of its arrays by what its write-backs leave. Here that
  final state is read at the two result buffers (the second layer's activations and the logits) as well as at the
  eight argument buffers, so that later modules can say what the folded contents are.
-/
import proofs.«103694_j89532888252423_1_alg».proof.Proof.Gen.KernelIdeal.Frame

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the two result buffers hold
    the folded contents `W10` and the arguments are as launched. -/
theorem run_results : θ_run defs (onTc (τ := τ) (main (F := F))) ⟨m, fun _ => 0, ρ⟩ (fun r => ∀ c : Dev nD,
      r.2.mem ((c.tc : Thread nD τ).loc main_v82) = W10 m ρ c (Proc.devRef .tc main_v82)
      ∧ r.2.mem ((c.tc : Thread nD τ).loc main_v84) = W10 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v82 (by decide)),
       h c _ (mem_uc main_v84 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Gcn

end
-- ==== Proof.Keeps.lean ====
/-
  Buffers that pass through segments untouched.

  A kernel changes only its output array, and a host stretch only the buffers its operations write. So the
  edge-list quantities made by the first stretch are still there when each round of message passing reads them, each
  weight and bias is still as launched when its layer reads it, and an activation array written by one kernel is
  what the next one stages. Each fact below walks one buffer back through the segments that leave it alone.
-/
import proofs.«103694_j89532888252423_1_alg».proof.Proof.Gen.KernelIdeal.Frame
import Idealize.ShloMosaic.PureOps.Ideal

set_option maxRecDepth 16384

noncomputable section

namespace Cert.KernelIdeal.Gcn

open Idealize.ShloMosaic Idealize.ShloMosaic.TcCoe Idealize.SL.Sem
open Cert.KernelIdeal Cert.KernelIdeal.Gen

/-- No operation of the named stretch writes the buffer in the goal: each operation writes one buffer, a different one. -/
macro "host_keeps " ops:ident buf:ident : tactic => `(tactic|
  exact StableHlo.after_of_forall_not_mem (b := Proc.devRef .tc $buf:ident) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-- The sources, when the first round of message passing reads them. -/
theorem src_at2 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- The destinations, then. -/
theorem dst_at2 : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

/-- The normalizer, then. -/
theorem dinv_at2 : W2 m ρ c (Proc.devRef .tc main_v16) = W1 m ρ c (Proc.devRef .tc main_v16) :=
  calc W2 m ρ c (Proc.devRef .tc main_v16)
    _ = W1 m ρ c (Proc.devRef .tc main_v16) := W2_of_ne m ρ c main_v16 (by decide)

/-- The sources, when the second round reads them. -/
theorem src_at6 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := (by host_keeps hostOps2 main_v3)
    _ = W3 m ρ c (Proc.devRef .tc main_v3) := W4_of_ne m ρ c main_v3 (by decide)
    _ = W2 m ρ c (Proc.devRef .tc main_v3) := (by host_keeps hostOps1 main_v3)
    _ = W1 m ρ c (Proc.devRef .tc main_v3) := W2_of_ne m ρ c main_v3 (by decide)

/-- The destinations, then. -/
theorem dst_at6 : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := (by host_keeps hostOps2 main_v6)
    _ = W3 m ρ c (Proc.devRef .tc main_v6) := W4_of_ne m ρ c main_v6 (by decide)
    _ = W2 m ρ c (Proc.devRef .tc main_v6) := (by host_keeps hostOps1 main_v6)
    _ = W1 m ρ c (Proc.devRef .tc main_v6) := W2_of_ne m ρ c main_v6 (by decide)

/-- The normalizer, then. -/
theorem dinv_at6 : W6 m ρ c (Proc.devRef .tc main_v16) = W1 m ρ c (Proc.devRef .tc main_v16) :=
  calc W6 m ρ c (Proc.devRef .tc main_v16)
    _ = W5 m ρ c (Proc.devRef .tc main_v16) := W6_of_ne m ρ c main_v16 (by decide)
    _ = W4 m ρ c (Proc.devRef .tc main_v16) := (by host_keeps hostOps2 main_v16)
    _ = W3 m ρ c (Proc.devRef .tc main_v16) := W4_of_ne m ρ c main_v16 (by decide)
    _ = W2 m ρ c (Proc.devRef .tc main_v16) := (by host_keeps hostOps1 main_v16)
    _ = W1 m ρ c (Proc.devRef .tc main_v16) := W2_of_ne m ρ c main_v16 (by decide)

/-- The node features when the first kernel stages them. -/
theorem x_at1 : W1 m ρ c (Proc.devRef .tc main_arg0) = W0 m ρ c (Proc.devRef .tc main_arg0) :=
  calc W1 m ρ c (Proc.devRef .tc main_arg0)
    _ = W0 m ρ c (Proc.devRef .tc main_arg0) := (by host_keeps hostOps0 main_arg0)

/-- The first weight, then. -/
theorem w1_at1 : W1 m ρ c (Proc.devRef .tc main_arg1) = W0 m ρ c (Proc.devRef .tc main_arg1) :=
  calc W1 m ρ c (Proc.devRef .tc main_arg1)
    _ = W0 m ρ c (Proc.devRef .tc main_arg1) := (by host_keeps hostOps0 main_arg1)

/-- The first bias when it is laid out as a row. -/
theorem b1_at2 : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := (by host_keeps hostOps0 main_arg2)

/-- The second weight when the second projection stages it. -/
theorem w2_at5 : W5 m ρ c (Proc.devRef .tc main_arg3) = W0 m ρ c (Proc.devRef .tc main_arg3) :=
  calc W5 m ρ c (Proc.devRef .tc main_arg3)
    _ = W4 m ρ c (Proc.devRef .tc main_arg3) := (by host_keeps hostOps2 main_arg3)
    _ = W3 m ρ c (Proc.devRef .tc main_arg3) := W4_of_ne m ρ c main_arg3 (by decide)
    _ = W2 m ρ c (Proc.devRef .tc main_arg3) := (by host_keeps hostOps1 main_arg3)
    _ = W1 m ρ c (Proc.devRef .tc main_arg3) := W2_of_ne m ρ c main_arg3 (by decide)
    _ = W0 m ρ c (Proc.devRef .tc main_arg3) := (by host_keeps hostOps0 main_arg3)

/-- The second bias when it is laid out as a row. -/
theorem b2_at6 : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := (by host_keeps hostOps2 main_arg4)
    _ = W3 m ρ c (Proc.devRef .tc main_arg4) := W4_of_ne m ρ c main_arg4 (by decide)
    _ = W2 m ρ c (Proc.devRef .tc main_arg4) := (by host_keeps hostOps1 main_arg4)
    _ = W1 m ρ c (Proc.devRef .tc main_arg4) := W2_of_ne m ρ c main_arg4 (by decide)
    _ = W0 m ρ c (Proc.devRef .tc main_arg4) := (by host_keeps hostOps0 main_arg4)

/-- The final weight when the final kernel stages it. -/
theorem wf_at9 : W9 m ρ c (Proc.devRef .tc main_arg5) = W0 m ρ c (Proc.devRef .tc main_arg5) :=
  calc W9 m ρ c (Proc.devRef .tc main_arg5)
    _ = W8 m ρ c (Proc.devRef .tc main_arg5) := (by host_keeps hostOps4 main_arg5)
    _ = W7 m ρ c (Proc.devRef .tc main_arg5) := W8_of_ne m ρ c main_arg5 (by decide)
    _ = W6 m ρ c (Proc.devRef .tc main_arg5) := (by host_keeps hostOps3 main_arg5)
    _ = W5 m ρ c (Proc.devRef .tc main_arg5) := W6_of_ne m ρ c main_arg5 (by decide)
    _ = W4 m ρ c (Proc.devRef .tc main_arg5) := (by host_keeps hostOps2 main_arg5)
    _ = W3 m ρ c (Proc.devRef .tc main_arg5) := W4_of_ne m ρ c main_arg5 (by decide)
    _ = W2 m ρ c (Proc.devRef .tc main_arg5) := (by host_keeps hostOps1 main_arg5)
    _ = W1 m ρ c (Proc.devRef .tc main_arg5) := W2_of_ne m ρ c main_arg5 (by decide)
    _ = W0 m ρ c (Proc.devRef .tc main_arg5) := (by host_keeps hostOps0 main_arg5)

/-- The final bias when it is laid out as a row. -/
theorem bf_at8 : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := (by host_keeps hostOps3 main_arg6)
    _ = W5 m ρ c (Proc.devRef .tc main_arg6) := W6_of_ne m ρ c main_arg6 (by decide)
    _ = W4 m ρ c (Proc.devRef .tc main_arg6) := (by host_keeps hostOps2 main_arg6)
    _ = W3 m ρ c (Proc.devRef .tc main_arg6) := W4_of_ne m ρ c main_arg6 (by decide)
    _ = W2 m ρ c (Proc.devRef .tc main_arg6) := (by host_keeps hostOps1 main_arg6)
    _ = W1 m ρ c (Proc.devRef .tc main_arg6) := W2_of_ne m ρ c main_arg6 (by decide)
    _ = W0 m ρ c (Proc.devRef .tc main_arg6) := (by host_keeps hostOps0 main_arg6)

/-- The first layer's activations when the second projection stages them. -/
theorem h1_at5 : W5 m ρ c (Proc.devRef .tc main_v49) = W4 m ρ c (Proc.devRef .tc main_v49) :=
  calc W5 m ρ c (Proc.devRef .tc main_v49)
    _ = W4 m ρ c (Proc.devRef .tc main_v49) := (by host_keeps hostOps2 main_v49)

/-- The second layer's activations at the end: the final kernel only reads them. -/
theorem h2_at10 : W10 m ρ c (Proc.devRef .tc main_v82) = W8 m ρ c (Proc.devRef .tc main_v82) :=
  calc W10 m ρ c (Proc.devRef .tc main_v82)
    _ = W9 m ρ c (Proc.devRef .tc main_v82) := (W10_arr m ρ c 0).trans (((dat4 (V9 m ρ) c).arrAt_in 0 rfl _).trans (A_eq4 (V9 m ρ) c 0))
    _ = W8 m ρ c (Proc.devRef .tc main_v82) := (by host_keeps hostOps4 main_v82)

/-- The second layer's activations when the final kernel stages them. -/
theorem h2_at9 : W9 m ρ c (Proc.devRef .tc main_v82) = W8 m ρ c (Proc.devRef .tc main_v82) :=
  calc W9 m ρ c (Proc.devRef .tc main_v82)
    _ = W8 m ρ c (Proc.devRef .tc main_v82) := (by host_keeps hostOps4 main_v82)

/-- The launch contents of a buffer are the memory's. -/
theorem W0_eq (b : Ref sig .tc) : W0 m ρ c (Proc.devRef .tc b) = m ((c : Thread nD τ).loc b) := rfl

end Cert.KernelIdeal.Gcn

end
-- ==== Proof.Layers.lean ====
/-
  The two dense layers of the network as whole-array functions over the extended reals.

  `linear X W b` is the affine map of the rows of `X`: entry (r, c) is ∑ₖ X(r, k) · W(k, c) + b(0, c), the bias
  being a one-row array. `biasRelu A b` adds the bias row to every row of `A` and clamps below at the word for
  zero: entry (r, c) is max (A(r, c) + b(0, c)) 0. Both are stated for 100000 rows and 64 output columns and any
  inner extent `K`, index by index, so that a block of consecutive rows of the result depends only on the same
  block of rows of the first operand.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The word of +0.0, read as an extended real (it is 0; only the zero-bias law needs to know). -/
abbrev zeroWord : EReal := Ideal.ofBits .f32 0x00000000#32

/-- A product changes with its right factor only through that factor. -/
theorem mul_right_congr (a : EReal) {b b' : EReal} (h : b = b') : a * b = a * b' := congrArg (a * ·) h

/-- The offset of every access of the kernel bodies: the origin. -/
theorem origin2 : (![0, 0] : Fin 2 → Nat) = fun _ => 0 := funext fun a => by fin_cases a <;> rfl

/-- A clamped sum changes with its second summand only through that summand. -/
theorem clamp_congr (a : EReal) {b b' : EReal} (h : b = b') :
    max (a + b) (Ideal.ofBits .f32 0x00000000#32) = max (a + b') (Ideal.ofBits .f32 0x00000000#32) := by rw [h]

variable {K : Nat}

/-- Entry (r, c) of X · W + b. -/
def linearAt (X : FVec Ideal ⟨2, ![100000, K]⟩ .f32) (W : FVec Ideal ⟨2, ![K, 64]⟩ .f32) (b : FVec Ideal ⟨2, ![1, 64]⟩ .f32)
    (r : Fin 100000) (c : Fin 64) : EReal :=
  (∑ k : Fin K, X (ix2 r k) * W (ix2 k c)) + b (ix2 (0 : Fin 1) c)

/-- X · W + b, as an array. -/
def linear (X : FVec Ideal ⟨2, ![100000, K]⟩ .f32) (W : FVec Ideal ⟨2, ![K, 64]⟩ .f32) (b : FVec Ideal ⟨2, ![1, 64]⟩ .f32) :
    FVec Ideal ⟨2, ![100000, 64]⟩ .f32 :=
  fun i => linearAt X W b ⟨(i 0).val, idx2_lt0 i⟩ ⟨(i 1).val, idx2_lt1 i⟩

theorem linear_apply (X : FVec Ideal ⟨2, ![100000, K]⟩ .f32) (W : FVec Ideal ⟨2, ![K, 64]⟩ .f32) (b : FVec Ideal ⟨2, ![1, 64]⟩ .f32)
    (r : Fin 100000) (c : Fin 64) : linear X W b (ix2 r c) = linearAt X W b r c := rfl

/-- Entry (r, c) of max (A + b) 0. -/
def biasReluAt (A : FVec Ideal ⟨2, ![100000, 64]⟩ .f32) (b : FVec Ideal ⟨2, ![1, 64]⟩ .f32) (r : Fin 100000) (c : Fin 64) : EReal :=
  max (A (ix2 r c) + b (ix2 (0 : Fin 1) c)) zeroWord

/-- max (A + b) 0, as an array. -/
def biasRelu (A : FVec Ideal ⟨2, ![100000, 64]⟩ .f32) (b : FVec Ideal ⟨2, ![1, 64]⟩ .f32) : FVec Ideal ⟨2, ![100000, 64]⟩ .f32 :=
  fun i => biasReluAt A b ⟨(i 0).val, idx2_lt0 i⟩ ⟨(i 1).val, idx2_lt1 i⟩

theorem biasRelu_apply (A : FVec Ideal ⟨2, ![100000, 64]⟩ .f32) (b : FVec Ideal ⟨2, ![1, 64]⟩ .f32) (r : Fin 100000) (c : Fin 64) :
    biasRelu A b (ix2 r c) = biasReluAt A b r c := rfl

/-- ROW BLOCKS of the affine map: if `x0` is rows off … off + 10000 of `X`, then row p of x0 · W + b is row off + p of
    X · W + b. -/
theorem linearAt_block (X : FVec Ideal ⟨2, ![100000, K]⟩ .f32) (W : FVec Ideal ⟨2, ![K, 64]⟩ .f32) (b : FVec Ideal ⟨2, ![1, 64]⟩ .f32)
    (x0 : FVec Ideal ⟨2, ![10000, K]⟩ .f32) (p : Fin 10000) (q : Fin 64) (r : Fin 100000)
    (h0 : ∀ k : Fin K, x0 (ix2 p k) = X (ix2 r k)) :
    (∑ k : Fin K, x0 (ix2 p k) * W (ix2 k q)) + b (ix2 (0 : Fin 1) q) = linearAt X W b r q := by
  unfold linearAt
  exact congrArg (· + b (ix2 (0 : Fin 1) q)) (Finset.sum_congr rfl fun k _ => by rw [h0 k])

/-- ROW BLOCKS of the clamped sum: entrywise, so a block's row p is the array's row r when the operand's are. -/
theorem biasReluAt_block (A : FVec Ideal ⟨2, ![100000, 64]⟩ .f32) (b : FVec Ideal ⟨2, ![1, 64]⟩ .f32)
    (x0 : FVec Ideal ⟨2, ![10000, 64]⟩ .f32) (p : Fin 10000) (q : Fin 64) (r : Fin 100000)
    (h0 : x0 (ix2 p q) = A (ix2 r q)) :
    max (x0 (ix2 p q) + b (ix2 (0 : Fin 1) q)) zeroWord = biasReluAt A b r q := by
  unfold biasReluAt
  rw [h0]

end Cert.Gcn

end
-- ==== Proof.HostParts.lean ====
/-
  The graph side of the network as pure functions of the edge list, and the whole network as one function.

  The edge list is a [2, E] integer array; the self loops 0 … N−1 are appended to each row, giving the source and the
  destination of every message. The in-degree (self loop included) is a scatter of ones at the destinations, and
  `dinv` its reciprocal square root. `aggregate` is one round of message passing on a feature array P: gather the
  source rows of P, scale each by dinv(source) · dinv(destination), and scatter-add them at the destinations. Negative
  indices are wrapped by N before a gather and before the degree scatter, exactly as the program does; the feature
  scatter takes the destinations as they are. None of these operations is opened anywhere in the proof: the two
  programs apply the same ones to the same edge list, and everything else is the two dense layers of Layers.lean.
-/
import proofs.«103694_j89532888252423_1_alg».proof.Proof.Gen.KernelIdeal
import proofs.«103694_j89532888252423_1_alg».proof.Proof.Layers

noncomputable section

namespace Cert.KernelIdeal.Gcn

open Idealize.ShloMosaic Cert.KernelIdeal Cert.KernelIdeal.Facts₀ Cert.KernelIdeal.Facts Cert.Gcn

/-- Integer and float arrays of a shape, at the ideal instance. -/
abbrev IArr (s : Shape) : Type := (⟨s, .i32⟩ : BufTy).Contents (Elt Ideal)
abbrev FArr (s : Shape) : Type := (⟨s, .f32⟩ : BufTy).Contents (Elt Ideal)

/-- Row 0 of the edge list followed by the self loops: the source of every message. -/
def src (e : IArr S2x1600000) : IArr S1700000 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- Row 1 of the edge list followed by the self loops: the destination of every message. -/
def dst (e : IArr S2x1600000) : IArr S1700000 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A negative node index counts from the end: add N to it. -/
def wrap (v : IArr S1700000) : IArr S1700000 :=
  select (cmpi .slt v (broadcastInDim S1700000 ![] bcast_S_S1700000 (constantI S_ 32 0#32)))
    (addi v (broadcastInDim S1700000 ![] bcast_S_S1700000 (constantI S_ 32 100000#32))) v

/-- A vector of node indices as a one-column index array. -/
def col (v : IArr S1700000) : IArr S1700000x1 := broadcastInDim S1700000x1 ![0] bcast_S1700000_S1700000x1_0 v

/-- The in-degree of every node, self loop included. -/
def deg (e : IArr S2x1600000) : FArr S100000 :=
  Host.scatterAdd (F := Ideal) scatter_S100000_S1700000x1_S1700000_n_0_0_1
    (broadcastInDim S100000 ![] bcast_S_S100000 (constant (F := Ideal) S_ .f32 0x00000000#32)) (col (wrap (dst e)))
    (broadcastInDim S1700000 ![] bcast_S_S1700000 (constant (F := Ideal) S_ .f32 0x3F800000#32))

/-- The reciprocal square root of the in-degree. -/
def dinv (e : IArr S2x1600000) : FArr S100000 := Host.rsqrt (F := Ideal) (φ := .f32) (deg e)

/-- One round of normalized message passing on the feature array `P`. -/
def aggregate (s d : IArr S1700000) (n : FArr S100000) (P : FArr S100000x64) : FArr S100000x64 :=
  Host.scatterAdd (F := Ideal) scatter_S100000x64_S1700000x1_S1700000x64_1_0_0_1
    (broadcastInDim S100000x64 ![] bcast_S_S100000x64 (constant (F := Ideal) S_ .f32 0x00000000#32)) (col d)
    (mulf
      (broadcastInDim S1700000x64 ![0, 1] bcast_S1700000x1_S1700000x64_0_1
        (broadcastInDim S1700000x1 ![0] bcast_S1700000_S1700000x1_0
          (mulf (Host.gather gather_S100000_S1700000x1_S1700000_n_0_n_n_0_1_1 n (col (wrap s)))
            (Host.gather gather_S100000_S1700000x1_S1700000_n_0_n_n_0_1_1 n (col (wrap d))))))
      (Host.gather gather_S100000x64_S1700000x1_S1700000x64_1_0_n_n_0_1_164 P (col (wrap s))))

/-- A bias vector laid out as the one row of a [1, 64] array. -/
def rowOf (b : FArr S64) : FArr S1x64 := shapeCast S1x64 b shapeCasts_S64_S1x64

/-- The zero bias of the two hidden projections, as a row. -/
def zeroRow : FArr S1x64 := rowOf (broadcastInDim S64 ![] bcast_S_S64 (constant (F := Ideal) S_ .f32 0x00000000#32))

/-- The second layer's activations: two rounds of (project, aggregate, add the bias, clamp). -/
def embedding (x : FArr S100000x128) (w1 : FArr S128x64) (b1 : FArr S64) (w2 : FArr S64x64) (b2 : FArr S64)
    (e : IArr S2x1600000) : FArr S100000x64 :=
  biasRelu (aggregate (src e) (dst e) (dinv e)
      (linear (K := 64) (biasRelu (aggregate (src e) (dst e) (dinv e) (linear (K := 128) x w1 zeroRow)) (rowOf b1)) w2 zeroRow))
    (rowOf b2)

/-- The logits: the final affine map of the activations. -/
def logits (x : FArr S100000x128) (w1 : FArr S128x64) (b1 : FArr S64) (w2 : FArr S64x64) (b2 : FArr S64)
    (wf : FArr S64x64) (bf : FArr S64) (e : IArr S2x1600000) : FArr S100000x64 :=
  linear (K := 64) (embedding x w1 b1 w2 b2 e) wf (rowOf bf)

end Cert.KernelIdeal.Gcn

end
-- ==== Proof.Stretches.lean ====
/-
  What the host stretches between the kernels write.

  The first stretch turns the edge list into the source and destination vectors and the normalizer `dinv`, and
  makes the zero bias row of the first projection. The stretch after each projection kernel is one round of message
  passing on the projection's output (`aggregate`) and lays the layer's bias out as a row; the short stretches make
  the zero row of the second projection and the row of the final bias. Each fact reads the stretch's operations
  back in order from the contents the stretch starts from.
-/
import proofs.«103694_j89532888252423_1_alg».proof.Proof.Gen.KernelIdeal.Frame
import proofs.«103694_j89532888252423_1_alg».proof.Proof.HostParts
import Idealize.ShloMosaic.Lib.StableHlo.Run

set_option maxRecDepth 16384

noncomputable section

namespace Cert.KernelIdeal.Gcn

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg) (c : Dev nD)

/-! ## The first stretch: the edge-list quantities and the zero row -/

theorem first_src : W1 m ρ c (Proc.devRef .tc main_v3) = src (m ((c : Thread nD τ).loc main_arg7)) := by
  show StableHlo.after hostOps0 (W0 m ρ c) (Proc.devRef .tc main_v3) = _
  after_results
  rfl

theorem first_dst : W1 m ρ c (Proc.devRef .tc main_v6) = dst (m ((c : Thread nD τ).loc main_arg7)) := by
  show StableHlo.after hostOps0 (W0 m ρ c) (Proc.devRef .tc main_v6) = _
  after_results
  rfl

set_option maxHeartbeats 4000000 in
theorem first_dinv : W1 m ρ c (Proc.devRef .tc main_v16) = dinv (m ((c : Thread nD τ).loc main_arg7)) := by
  show StableHlo.after hostOps0 (W0 m ρ c) (Proc.devRef .tc main_v16) = _
  after_results_simp
  rfl

theorem first_zeroRow : W1 m ρ c (Proc.devRef .tc main_v18) = zeroRow := by
  show StableHlo.after hostOps0 (W0 m ρ c) (Proc.devRef .tc main_v18) = _
  after_results
  rfl

/-! ## After the first projection: message passing and the first bias row -/

theorem second_aggregate : W3 m ρ c (Proc.devRef .tc main_v47)
    = aggregate (W2 m ρ c (Proc.devRef .tc main_v3)) (W2 m ρ c (Proc.devRef .tc main_v6)) (W2 m ρ c (Proc.devRef .tc main_v16)) (W2 m ρ c (Proc.devRef .tc main_v19)) := by
  show StableHlo.after hostOps1 (W2 m ρ c) (Proc.devRef .tc main_v47) = _
  after_results_simp
  rfl

theorem second_row : W3 m ρ c (Proc.devRef .tc main_v48) = rowOf (W2 m ρ c (Proc.devRef .tc main_arg2)) := by
  show StableHlo.after hostOps1 (W2 m ρ c) (Proc.devRef .tc main_v48) = _
  after_results_simp
  rfl

/-! ## Before the second projection: its zero row -/

theorem third_zeroRow : W5 m ρ c (Proc.devRef .tc main_v51) = zeroRow := by
  show StableHlo.after hostOps2 (W4 m ρ c) (Proc.devRef .tc main_v51) = _
  after_results
  rfl

/-! ## After the second projection: message passing and the second bias row -/

theorem fourth_aggregate : W7 m ρ c (Proc.devRef .tc main_v80)
    = aggregate (W6 m ρ c (Proc.devRef .tc main_v3)) (W6 m ρ c (Proc.devRef .tc main_v6)) (W6 m ρ c (Proc.devRef .tc main_v16)) (W6 m ρ c (Proc.devRef .tc main_v52)) := by
  show StableHlo.after hostOps3 (W6 m ρ c) (Proc.devRef .tc main_v80) = _
  after_results_simp
  rfl

theorem fourth_row : W7 m ρ c (Proc.devRef .tc main_v81) = rowOf (W6 m ρ c (Proc.devRef .tc main_arg4)) := by
  show StableHlo.after hostOps3 (W6 m ρ c) (Proc.devRef .tc main_v81) = _
  after_results_simp
  rfl

/-! ## Before the final kernel: the final bias as a row -/

theorem fifth_row : W9 m ρ c (Proc.devRef .tc main_v83) = rowOf (W8 m ρ c (Proc.devRef .tc main_arg6)) := by
  show StableHlo.after hostOps4 (W8 m ρ c) (Proc.devRef .tc main_v83) = _
  after_results
  rfl

end Cert.KernelIdeal.Gcn

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibColRow.lean ====
/-
  Column and row broadcasts of small rank, and a vector viewed as a column, read at an index.

  • A column `[R, 1]` spread over `C` columns reads, at `(p, q)`, the column's entry `(p, 0)`.
  • A row `[1, C]` repeated over `R` rows reads, at `(p, q)`, the row's entry `(0, q)`.
  • A vector `[R]` viewed as a column `[R, 1]` reads, at `(p, 0)`, the vector's entry `p`; a vector `[C]` viewed as a
    row `[1, C]` reads, at `(0, q)`, the vector's entry `q`.
  General in the extents and the element type.
-/
import Idealize.ShloMosaic.Lib.ValueIdx
import Idealize.ShloMosaic.Lib.Pipeline.Value

noncomputable section

namespace Cert.LibColRow

open Idealize.ShloMosaic Idealize.ShloMosaic.ValueIdx

variable {α : Type}

/-- A column `[R, 1]` broadcast to `[R, C]`, at `(p, q)`: the column at `(p, 0)`. -/
theorem bcastTo_col_apply {R C : Nat} (h : (⟨2, ![R, 1]⟩ : Shape).Broadcasts ⟨2, ![R, C]⟩)
    (x : (⟨2, ![R, 1]⟩ : Shape).Idx → α) (p : Fin R) (q : Fin C) :
    broadcastTo ⟨2, ![R, C]⟩ x h (ix2 p q) = x (ix2 p (0 : Fin 1)) := by
  refine broadcastTo_apply x h (ix2 p q) (ix2 p (0 : Fin 1)) fun a => ?_
  match a with
  | ⟨0, _⟩ =>
    show p.val = if R = 1 then 0 else p.val
    split
    · next h1 => have := p.isLt; omega
    · rfl
  | ⟨1, _⟩ =>
    show 0 = if (1 : Nat) = 1 then 0 else q.val
    rw [if_pos rfl]

/-- A row `[1, C]` broadcast to `[R, C]`, at `(p, q)`: the row at `(0, q)`. -/
theorem bcastTo_row_apply {R C : Nat} (h : (⟨2, ![1, C]⟩ : Shape).Broadcasts ⟨2, ![R, C]⟩)
    (x : (⟨2, ![1, C]⟩ : Shape).Idx → α) (p : Fin R) (q : Fin C) :
    broadcastTo ⟨2, ![R, C]⟩ x h (ix2 p q) = x (ix2 (0 : Fin 1) q) := by
  refine broadcastTo_apply x h (ix2 p q) (ix2 (0 : Fin 1) q) fun a => ?_
  match a with
  | ⟨0, _⟩ =>
    show 0 = if (1 : Nat) = 1 then 0 else p.val
    rw [if_pos rfl]
  | ⟨1, _⟩ =>
    show q.val = if C = 1 then 0 else q.val
    split
    · next h1 => have := q.isLt; omega
    · rfl

/-- A vector `[R]` viewed as a column `[R, 1]`, at `(p, z)`: the vector at `p`. -/
theorem shapeCast_col_apply {R : Nat} (h : (⟨1, ![R]⟩ : Shape).ShapeCasts ⟨2, ![R, 1]⟩)
    (x : (⟨1, ![R]⟩ : Shape).Idx → α) (p : Fin R) (z : Fin 1) :
    shapeCast ⟨2, ![R, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- A vector `[C]` viewed as a row `[1, C]`, at `(z, q)`: the vector at `q`. -/
theorem shapeCast_row_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  show q.val = z.val * C + q.val
  have := z.isLt
  have hz : z.val = 0 := by omega
  rw [hz, Nat.zero_mul, Nat.zero_add]

end Cert.LibColRow

end
-- ==== Proof.Payloads.lean ====
/-
  What each kernel body computes, read at one entry of its output block.

  A linear body casts its row block and its weight to the narrower format (the identity on extended reals),
  multiplies them into a zero accumulator and adds the bias row repeated over the rows: entry (p, q) is
  ∑ₖ x(p, k) · w(k, q) + b(0, q). A bias-and-clamp body adds the bias row and takes the maximum with the word for
  zero: entry (p, q) is max (a(p, q) + b(0, q)) 0. The three linear bodies differ only in the inner extent.
-/
import proofs.«103694_j89532888252423_1_alg».proof.Proof.Gen.KernelIdeal.Skeleton
import proofs.«103694_j89532888252423_1_alg».proof.Proof.LibPlainDot
import proofs.«103694_j89532888252423_1_alg».proof.Proof.LibColRow
import Idealize.ShloMosaic.Lib.Pipeline.Value
import Idealize.ShloMosaic.Lib.ValueIdx

noncomputable section

namespace Cert.KernelIdeal.Gcn

open Idealize.ShloMosaic Idealize.ShloMosaic.ValueIdx Cert.KernelIdeal Cert.KernelIdeal.Gen

/-- The product of a row block with a weight into a zero accumulator plus the repeated bias row, at (p, q):
    the first linear body (inner extent 128). -/
theorem pay_linear128 (x0 : Vec Ideal S10000x128 .f32) (x1 : Vec Ideal S128x64 .f32) (x2 : Vec Ideal S1x64 .f32)
    (p : Fin 10000) (q : Fin 64) :
    k0_pay1 (F := Ideal) x0 x1 x2 (ix2 p q) = (∑ k : Fin 128, x0 (ix2 p k) * x1 (ix2 k q)) + x2 (ix2 (0 : Fin 1) q) := by
  unfold k0_pay1
  refine congrArg₂ (· + ·) ?_ ?_
  · exact Cert.LibPlainDot.matmul_zero_apply (M := 10000) (K := 128) (N := 64) dot_S10000x128_S128x64_S10000x64_1_0_0_1_n_n.wf none
      (truncf .bf16 x0 bitsLt_bf16_f32) (truncf .bf16 x1 bitsLt_bf16_f32) p q
  · refine (Cert.LibColRow.bcastTo_row_apply broadcasts_S1x64_S10000x64 _ p q).trans ?_
    exact congrFun (shapeCast_self x2 shapeCasts_S1x64_S1x64) _

/-- The same body at inner extent 64 (the second linear kernel). -/
theorem pay_linear64_a (x0 : Vec Ideal S10000x64 .f32) (x1 : Vec Ideal S64x64 .f32) (x2 : Vec Ideal S1x64 .f32)
    (p : Fin 10000) (q : Fin 64) :
    k2_pay1 (F := Ideal) x0 x1 x2 (ix2 p q) = (∑ k : Fin 64, x0 (ix2 p k) * x1 (ix2 k q)) + x2 (ix2 (0 : Fin 1) q) := by
  unfold k2_pay1
  refine congrArg₂ (· + ·) ?_ ?_
  · refine (Cert.LibPlainDot.matmul_zero_apply (M := 10000) (K := 64) (N := 64) dot_S10000x64_S64x64_S10000x64_1_0_0_1_n_n.wf none
      (truncf .bf16 (shapeCast S10000x64 x0 shapeCasts_S10000x64_S10000x64) bitsLt_bf16_f32) (truncf .bf16 x1 bitsLt_bf16_f32) p q).trans ?_
    exact Finset.sum_congr rfl fun k _ => congrArg (· * x1 (ix2 k q)) (congrFun (shapeCast_self x0 shapeCasts_S10000x64_S10000x64) _)
  · refine (Cert.LibColRow.bcastTo_row_apply broadcasts_S1x64_S10000x64 _ p q).trans ?_
    exact congrFun (shapeCast_self x2 shapeCasts_S1x64_S1x64) _

/-- The same body at inner extent 64 (the final linear kernel). -/
theorem pay_linear64_b (x0 : Vec Ideal S10000x64 .f32) (x1 : Vec Ideal S64x64 .f32) (x2 : Vec Ideal S1x64 .f32)
    (p : Fin 10000) (q : Fin 64) :
    k4_pay1 (F := Ideal) x0 x1 x2 (ix2 p q) = (∑ k : Fin 64, x0 (ix2 p k) * x1 (ix2 k q)) + x2 (ix2 (0 : Fin 1) q) := by
  unfold k4_pay1
  refine congrArg₂ (· + ·) ?_ ?_
  · refine (Cert.LibPlainDot.matmul_zero_apply (M := 10000) (K := 64) (N := 64) dot_S10000x64_S64x64_S10000x64_1_0_0_1_n_n.wf none
      (truncf .bf16 (shapeCast S10000x64 x0 shapeCasts_S10000x64_S10000x64) bitsLt_bf16_f32) (truncf .bf16 x1 bitsLt_bf16_f32) p q).trans ?_
    exact Finset.sum_congr rfl fun k _ => congrArg (· * x1 (ix2 k q)) (congrFun (shapeCast_self x0 shapeCasts_S10000x64_S10000x64) _)
  · refine (Cert.LibColRow.bcastTo_row_apply broadcasts_S1x64_S10000x64 _ p q).trans ?_
    exact congrFun (shapeCast_self x2 shapeCasts_S1x64_S1x64) _

/-- A block plus the repeated bias row, clamped below at the word for zero, at (p, q): the first such body. -/
theorem pay_biasRelu_a (x0 : Vec Ideal S10000x64 .f32) (x1 : Vec Ideal S1x64 .f32) (p : Fin 10000) (q : Fin 64) :
    k1_pay1 (F := Ideal) x0 x1 (ix2 p q) = max (x0 (ix2 p q) + x1 (ix2 (0 : Fin 1) q)) (Ideal.ofBits .f32 0x00000000#32) := by
  unfold k1_pay1
  refine congrArg (max · (Ideal.ofBits .f32 0x00000000#32)) (congrArg₂ (· + ·) ?_ ?_)
  · exact congrFun (shapeCast_self x0 shapeCasts_S10000x64_S10000x64) _
  · refine (Cert.LibColRow.bcastTo_row_apply broadcasts_S1x64_S10000x64 _ p q).trans ?_
    exact congrFun (shapeCast_self x1 shapeCasts_S1x64_S1x64) _

/-- The second such body. -/
theorem pay_biasRelu_b (x0 : Vec Ideal S10000x64 .f32) (x1 : Vec Ideal S1x64 .f32) (p : Fin 10000) (q : Fin 64) :
    k3_pay1 (F := Ideal) x0 x1 (ix2 p q) = max (x0 (ix2 p q) + x1 (ix2 (0 : Fin 1) q)) (Ideal.ofBits .f32 0x00000000#32) := by
  unfold k3_pay1
  refine congrArg (max · (Ideal.ofBits .f32 0x00000000#32)) (congrArg₂ (· + ·) ?_ ?_)
  · exact congrFun (shapeCast_self x0 shapeCasts_S10000x64_S10000x64) _
  · refine (Cert.LibColRow.bcastTo_row_apply broadcasts_S1x64_S10000x64 _ p q).trans ?_
    exact congrFun (shapeCast_self x1 shapeCasts_S1x64_S1x64) _

end Cert.KernelIdeal.Gcn

end
-- ==== Proof.Region0.lean ====
/-
  The first linear kernel: its output array after the last grid point.

  The grid has ten points; point t stages rows 10000·t … 10000·t + 9999 of the row operand, the whole weight and the
  whole bias row, and writes back the same rows of the output. What it writes is the body's value on those blocks,
  which is rows 10000·t … of `linear` of the whole arrays; the ten blocks cover every row, so the output array ends
  as `linear` of the operand arrays as the kernel found them.
-/
import proofs.«103694_j89532888252423_1_alg».proof.Proof.Gen.KernelIdeal.Frame
import proofs.«103694_j89532888252423_1_alg».proof.Proof.Layers
import proofs.«103694_j89532888252423_1_alg».proof.Proof.Payloads

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The index maps over the grid: the row operand's block moves with the output's, along rows only; the weight and
    the bias row stay at block (0, 0); there are ten row blocks. -/
theorem idx0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every row block is some point's. -/
theorem onto0 : ∀ q0 : Fin 10, ∃ t : Fin cfg0.N, win0_3.index t = ![q0.val, 0] :=
  (by decide +kernel : ∀ q0 : Fin 10, ∃ t : Fin grid0.N, win0_3.index t = ![q0.val, 0])

/-- What point t writes back is block t of `linear` of the arrays as the kernel finds them. -/
theorem flushed0 (c : Dev nD) (t : Fin cfg0.N) :
    (dat0 V c).flushed 3 t = ((cfg0.win 3).blk t).view.read (Elt Ideal)
      (linear (K := 128) (V c main_arg0) (V c main_arg1) (V c main_v18)) := by
  show (cfg0.win 3).cut (grid0.coords t) ((dat0 V c).after 3 t) = _
  rw [after0_3]
  unfold out0_3
  rw [View.canon_unit_zero origin2]
  simp only [View.ld_unit_zero (S := S10000x128) origin2, View.ld_unit_zero (S := S128x64) origin2,
    View.ld_unit_zero (S := S1x64) origin2]
  obtain ⟨e0, e1, e2, e3, e4, e5, e6, e7⟩ := idx0 t
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (ix2 p q)
    = linear (K := 128) (V c main_arg0) (V c main_arg1) (V c main_v18) (((cfg0.win 3).blk t).view.emb (ix2 p q))
  refine (pay_linear128 _ _ _ p q).trans ?_
  have hp : p.val < 10000 := p.isLt
  have hq : q.val < 64 := q.isLt
  let r : Fin 100000 := ⟨win0_3.index t (0 : Fin 2) * 10000 + p.val, by omega⟩
  have hW : ∀ y : S128x64.Idx, iblk0 V c 1 t y = V c main_arg1 y := fun y => by
    show V c main_arg1 (((cfg0.win 1).blk t).view.emb y) = V c main_arg1 y
    refine congrArg (V c main_arg1) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  have hb : ∀ y : S1x64.Idx, iblk0 V c 2 t y = V c main_v18 y := fun y => by
    show V c main_v18 (((cfg0.win 2).blk t).view.emb y) = V c main_v18 y
    refine congrArg (V c main_v18) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  have hX : ∀ k : Fin 128, iblk0 V c 0 t (ix2 p k) = V c main_arg0 (ix2 r k) := fun k => by
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 10000 + 1 * p.val = win0_3.index t (0 : Fin 2) * 10000 + p.val; omega
    | ⟨1, _⟩ => show win0_0.index t (1 : Fin 2) * 128 + 1 * k.val = k.val; omega
  have hr : linear (K := 128) (V c main_arg0) (V c main_arg1) (V c main_v18) (((cfg0.win 3).blk t).view.emb (ix2 p q))
      = linearAt (V c main_arg0) (V c main_arg1) (V c main_v18) r q := by
    show linearAt _ _ _ ⟨win0_3.index t (0 : Fin 2) * 10000 + 1 * p.val, _⟩ ⟨win0_3.index t (1 : Fin 2) * 64 + 1 * q.val, _⟩ = _
    congr 1
    · exact Fin.ext (by show win0_3.index t (0 : Fin 2) * 10000 + 1 * p.val = win0_3.index t (0 : Fin 2) * 10000 + p.val; omega)
    · exact Fin.ext (by show win0_3.index t (1 : Fin 2) * 64 + 1 * q.val = q.val; omega)
  refine Eq.trans ?_ ((linearAt_block (V c main_arg0) (V c main_arg1) (V c main_v18) (iblk0 V c 0 t) p q r hX).trans hr.symm)
  exact congrArg₂ (· + ·)
    (Finset.sum_congr rfl fun k _ => mul_right_congr _ (hW (ix2 k q))) (hb _)

/-- An index of the output array is in point t's block iff each coordinate is in the block's range. -/
theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v19).slice (win0_3.rect t)).set ↔ _
  rw [View.set_slice_whole, Rect.mem_set_unit]
  exact Iff.rfl

/-- Row r lies in the block of the point whose row block is r / 10000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE OUTPUT ARRAY after the last point: `linear` of the operand arrays as the kernel found them. -/
theorem final0 (c : Dev nD) :
    (dat0 V c).arrAt 3 cfg0.N = linear (K := 128) (V c main_arg0) (V c main_arg1) (V c main_v18) :=
  (dat0 V c).arrAt_eq_of_cover 3 _ (fun t _ => flushed0 V c t) cover0

end Cert.KernelIdeal.Gcn

end
-- ==== Proof.Region1.lean ====
/-
  The first bias-and-clamp kernel: its output array after the last grid point.

  Ten points; point t stages rows 10000·t … 10000·t + 9999 of the aggregated features and the whole bias row, and
  writes back the same rows of the output. The body is entrywise, so what it writes is the same rows of `biasRelu` of
  the whole arrays; the ten blocks cover every row.
-/
import proofs.«103694_j89532888252423_1_alg».proof.Proof.Gen.KernelIdeal.Frame
import proofs.«103694_j89532888252423_1_alg».proof.Proof.Layers
import proofs.«103694_j89532888252423_1_alg».proof.Proof.Payloads

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The index maps over the grid: the feature block moves with the output's, along rows only; the bias row stays
    at block (0, 0); there are ten row blocks. -/
theorem idx1 : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem onto1 : ∀ q0 : Fin 10, ∃ t : Fin cfg1.N, win1_2.index t = ![q0.val, 0] :=
  (by decide +kernel : ∀ q0 : Fin 10, ∃ t : Fin grid1.N, win1_2.index t = ![q0.val, 0])

/-- What point t writes back is block t of `biasRelu` of the arrays as the kernel finds them. -/
theorem flushed1 (c : Dev nD) (t : Fin cfg1.N) :
    (dat1 V c).flushed 2 t = ((cfg1.win 2).blk t).view.read (Elt Ideal)
      (biasRelu (V c main_v47) (V c main_v48)) := by
  show (cfg1.win 2).cut (grid1.coords t) ((dat1 V c).after 2 t) = _
  rw [after1_2]
  unfold out1_2
  rw [View.canon_unit_zero origin2]
  simp only [View.ld_unit_zero (S := S10000x64) origin2, View.ld_unit_zero (S := S1x64) origin2]
  obtain ⟨e0, e1, e2, e3, e4, e5⟩ := idx1 t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = biasRelu (V c main_v47) (V c main_v48) (((cfg1.win 2).blk t).view.emb (ix2 p q))
  refine (pay_biasRelu_a _ _ p q).trans ?_
  have hp : p.val < 10000 := p.isLt
  have hq : q.val < 64 := q.isLt
  let r : Fin 100000 := ⟨win1_2.index t (0 : Fin 2) * 10000 + p.val, by omega⟩
  have hb : ∀ y : S1x64.Idx, iblk1 V c 1 t y = V c main_v48 y := fun y => by
    show V c main_v48 (((cfg1.win 1).blk t).view.emb y) = V c main_v48 y
    refine congrArg (V c main_v48) (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega
  have hX : iblk1 V c 0 t (ix2 p q) = V c main_v47 (ix2 r q) := by
    show V c main_v47 (((cfg1.win 0).blk t).view.emb (ix2 p q)) = V c main_v47 (ix2 r q)
    refine congrArg (V c main_v47) (funext fun a => Fin.ext ?_)
    match a with
    | ⟨0, _⟩ => show win1_0.index t (0 : Fin 2) * 10000 + 1 * p.val = win1_2.index t (0 : Fin 2) * 10000 + p.val; omega
    | ⟨1, _⟩ => show win1_0.index t (1 : Fin 2) * 64 + 1 * q.val = q.val; omega
  have hr : biasRelu (V c main_v47) (V c main_v48) (((cfg1.win 2).blk t).view.emb (ix2 p q))
      = biasReluAt (V c main_v47) (V c main_v48) r q := by
    show biasReluAt _ _ ⟨win1_2.index t (0 : Fin 2) * 10000 + 1 * p.val, _⟩ ⟨win1_2.index t (1 : Fin 2) * 64 + 1 * q.val, _⟩ = _
    congr 1
    · exact Fin.ext (by show win1_2.index t (0 : Fin 2) * 10000 + 1 * p.val = win1_2.index t (0 : Fin 2) * 10000 + p.val; omega)
    · exact Fin.ext (by show win1_2.index t (1 : Fin 2) * 64 + 1 * q.val = q.val; omega)
  refine Eq.trans ?_ ((biasReluAt_block (V c main_v47) (V c main_v48) (iblk1 V c 0 t) p q r hX).trans hr.symm)
  exact clamp_congr _ (hb _)

/-- An index of the output array is in point t's block iff each coordinate is in the block's range. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v49).slice (win1_2.rect t)).set ↔ _
  rw [View.set_slice_whole, Rect.mem_set_unit]
  exact Iff.rfl

/-- Row r lies in the block of the point whose row block is r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE OUTPUT ARRAY after the last point: `biasRelu` of the operand arrays as the kernel found them. -/
theorem final1 (c : Dev nD) :
    (dat1 V c).arrAt 2 cfg1.N = biasRelu (V c main_v47) (V c main_v48) :=
  (dat1 V c).arrAt_eq_of_cover 2 _ (fun t _ => flushed1 V c t) cover1

end Cert.KernelIdeal.Gcn

end
-- ==== Proof.Region2.lean ====
/-
  The second linear kernel (inner extent 64): its output array after the last grid point.

  As for the first one: ten points, point t staging rows 10000·t … of the row operand with the whole weight and bias
  row and writing back the same rows of the output; the blocks written are the row blocks of `linear` of the whole
  arrays and cover every row.
-/
import proofs.«103694_j89532888252423_1_alg».proof.Proof.Gen.KernelIdeal.Frame
import proofs.«103694_j89532888252423_1_alg».proof.Proof.Layers
import proofs.«103694_j89532888252423_1_alg».proof.Proof.Payloads

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The index maps over the grid: the row operand's block moves with the output's, along rows only; the weight and
    the bias row stay at block (0, 0); there are ten row blocks. -/
theorem idx2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every row block is some point's. -/
theorem onto2 : ∀ q0 : Fin 10, ∃ t : Fin cfg2.N, win2_3.index t = ![q0.val, 0] :=
  (by decide +kernel : ∀ q0 : Fin 10, ∃ t : Fin grid2.N, win2_3.index t = ![q0.val, 0])

/-- What point t writes back is block t of `linear` of the arrays as the kernel finds them. -/
theorem flushed2 (c : Dev nD) (t : Fin cfg2.N) :
    (dat2 V c).flushed 3 t = ((cfg2.win 3).blk t).view.read (Elt Ideal)
      (linear (K := 64) (V c main_v49) (V c main_arg3) (V c main_v51)) := by
  show (cfg2.win 3).cut (grid2.coords t) ((dat2 V c).after 3 t) = _
  rw [after2_3]
  unfold out2_3
  rw [View.canon_unit_zero origin2]
  simp only [View.ld_unit_zero (S := S10000x64) origin2, View.ld_unit_zero (S := S64x64) origin2,
    View.ld_unit_zero (S := S1x64) origin2]
  obtain ⟨e0, e1, e2, e3, e4, e5, e6, e7⟩ := idx2 t
  funext j
  obtain ⟨p, q, rfl⟩ : ∃ (p : Fin 10000) (q : Fin 64), j = ix2 p q := ⟨j 0, j 1, eq_ix2 j⟩
  show k2_pay1 (iblk2 V c 0 t) (iblk2 V c 1 t) (iblk2 V c 2 t) (ix2 p q)
    = linear (K := 64) (V c main_v49) (V c main_arg3) (V c main_v51) (((cfg2.win 3).blk t).view.emb (ix2 p q))
  refine (pay_linear64_a _ _ _ p q).trans ?_
  have hp : p.val < 10000 := p.isLt
  have hq : q.val < 64 := q.isLt
  let r : Fin 100000 := ⟨win2_3.index t (0 : Fin 2) * 10000 + p.val, by omega⟩
  have hW : ∀ y : S64x64.Idx, iblk2 V c 1 t y = V c main_arg3 y := fun y => by
    show V c main_arg3 (((cfg2.win 1).blk t).view.emb y) = V c main_arg3 y
    refine congrArg (V c main_arg3) (funext fun a => Fin.ext ?_)
    match a with
    | ⟨0, _⟩ => show win2_1.index t (0 : Fin 2) * 64 + 1 * (y 0).val = (y 0).val; omega
    | ⟨1, _⟩ => show win2_1.index t (1 : Fin 2) * 64 + 1 * (y 1).val = (y 1).val; omega
  have hb : ∀ y : S1x64.Idx, iblk2 V c 2 t y = V c main_v51 y := fun y => by
    show V c main_v51 (((cfg2.win 2).blk t).view.emb y) = V c main_v51 y
    refine congrArg (V c main_v51) (funext fun a => Fin.ext ?_)
    match a with
    | ⟨0, _⟩ => show win2_2.index t (0 : Fin 2) * 1 + 1 * (y 0).val = (y 0).val; omega
    | ⟨1, _⟩ => show win2_2.index t (1 : Fin 2) * 64 + 1 * (y 1).val = (y 1).val; omega
  have hX : ∀ k : Fin 64, iblk2 V c 0 t (ix2 p k) = V c main_v49 (ix2 r k) := fun k => by
    show V c main_v49 (((cfg2.win 0).blk t).view.emb (ix2 p k)) = V c main_v49 (ix2 r k)
    refine congrArg (V c main_v49) (funext fun a => Fin.ext ?_)
    match a with
    | ⟨0, _⟩ => show win2_0.index t (0 : Fin 2) * 10000 + 1 * p.val = win2_3.index t (0 : Fin 2) * 10000 + p.val; omega
    | ⟨1, _⟩ => show win2_0.index t (1 : Fin 2) * 64 + 1 * k.val = k.val; omega
  have hr : linear (K := 64) (V c main_v49) (V c main_arg3) (V c main_v51) (((cfg2.win 3).blk t).view.emb (ix2 p q))
      = linearAt (V c main_v49) (V c main_arg3) (V c main_v51) r q := by
    show linearAt _ _ _ ⟨win2_3.index t (0 : Fin 2) * 10000 + 1 * p.val, _⟩ ⟨win2_3.index t (1 : Fin 2) * 64 + 1 * q.val, _⟩ = _
    congr 1
    · exact Fin.ext (by show win2_3.index t (0 : Fin 2) * 10000 + 1 * p.val = win2_3.index t (0 : Fin 2) * 10000 + p.val; omega)
    · exact Fin.ext (by show win2_3.index t (1 : Fin 2) * 64 + 1 * q.val = q.val; omega)
  refine Eq.trans ?_ ((linearAt_block (V c main_v49) (V c main_arg3) (V c main_v51) (iblk2 V c 0 t) p q r hX).trans hr.symm)
  exact congrArg₂ (· + ·)
    (Finset.sum_congr rfl fun k _ => mul_right_congr _ (hW (ix2 k q))) (hb _)

/-- An index of the output array is in point t's block iff each coordinate is in the block's range. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v52).slice (win2_3.rect t)).set ↔ _
  rw [View.set_slice_whole, Rect.mem_set_unit]
  exact Iff.rfl

/-- Row r lies in the block of the point whose row block is r / 10000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- THE OUTPUT ARRAY after the last point: `linear` of the operand arrays as the kernel found them. -/
theorem final2 (c : Dev nD) :
    (dat2 V c).arrAt 3 cfg2.N = linear (K := 64) (V c main_v49) (V c main_arg3) (V c main_v51) :=
  (dat2 V c).arrAt_eq_of_cover 3 _ (fun t _ => flushed2 V c t) cover2

end Cert.KernelIdeal.Gcn

end
-- ==== Proof.Region3.lean ====
/-
  The second bias-and-clamp kernel: its output array after the last grid point.

  Ten points; point t stages rows 10000·t … 10000·t + 9999 of the aggregated features and the whole bias row, and
  writes back the same rows of the output. The body is entrywise, so what it writes is the same rows of `biasRelu` of
  the whole arrays; the ten blocks cover every row.
-/
import proofs.«103694_j89532888252423_1_alg».proof.Proof.Gen.KernelIdeal.Frame
import proofs.«103694_j89532888252423_1_alg».proof.Proof.Layers
import proofs.«103694_j89532888252423_1_alg».proof.Proof.Payloads

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The index maps over the grid: the feature block moves with the output's, along rows only; the bias row stays
    at block (0, 0); there are ten row blocks. -/
theorem idx3 : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block is some point's. -/
theorem onto3 : ∀ q0 : Fin 10, ∃ t : Fin cfg3.N, win3_2.index t = ![q0.val, 0] :=
  (by decide +kernel : ∀ q0 : Fin 10, ∃ t : Fin grid3.N, win3_2.index t = ![q0.val, 0])

/-- What point t writes back is block t of `biasRelu` of the arrays as the kernel finds them. -/
theorem flushed3 (c : Dev nD) (t : Fin cfg3.N) :
    (dat3 V c).flushed 2 t = ((cfg3.win 2).blk t).view.read (Elt Ideal)
      (biasRelu (V c main_v80) (V c main_v81)) := by
  show (cfg3.win 2).cut (grid3.coords t) ((dat3 V c).after 2 t) = _
  rw [after3_2]
  unfold out3_2
  rw [View.canon_unit_zero origin2]
  simp only [View.ld_unit_zero (S := S10000x64) origin2, View.ld_unit_zero (S := S1x64) origin2]
  obtain ⟨e0, e1, e2, e3, e4, e5⟩ := idx3 t
  funext j
  obtain ⟨p, q, rfl⟩ : ∃ (p : Fin 10000) (q : Fin 64), j = ix2 p q := ⟨j 0, j 1, eq_ix2 j⟩
  show k3_pay1 (iblk3 V c 0 t) (iblk3 V c 1 t) (ix2 p q)
    = biasRelu (V c main_v80) (V c main_v81) (((cfg3.win 2).blk t).view.emb (ix2 p q))
  refine (pay_biasRelu_b _ _ p q).trans ?_
  have hp : p.val < 10000 := p.isLt
  have hq : q.val < 64 := q.isLt
  let r : Fin 100000 := ⟨win3_2.index t (0 : Fin 2) * 10000 + p.val, by omega⟩
  have hb : ∀ y : S1x64.Idx, iblk3 V c 1 t y = V c main_v81 y := fun y => by
    show V c main_v81 (((cfg3.win 1).blk t).view.emb y) = V c main_v81 y
    refine congrArg (V c main_v81) (funext fun a => Fin.ext ?_)
    match a with
    | ⟨0, _⟩ => show win3_1.index t (0 : Fin 2) * 1 + 1 * (y 0).val = (y 0).val; omega
    | ⟨1, _⟩ => show win3_1.index t (1 : Fin 2) * 64 + 1 * (y 1).val = (y 1).val; omega
  have hX : iblk3 V c 0 t (ix2 p q) = V c main_v80 (ix2 r q) := by
    show V c main_v80 (((cfg3.win 0).blk t).view.emb (ix2 p q)) = V c main_v80 (ix2 r q)
    refine congrArg (V c main_v80) (funext fun a => Fin.ext ?_)
    match a with
    | ⟨0, _⟩ => show win3_0.index t (0 : Fin 2) * 10000 + 1 * p.val = win3_2.index t (0 : Fin 2) * 10000 + p.val; omega
    | ⟨1, _⟩ => show win3_0.index t (1 : Fin 2) * 64 + 1 * q.val = q.val; omega
  have hr : biasRelu (V c main_v80) (V c main_v81) (((cfg3.win 2).blk t).view.emb (ix2 p q))
      = biasReluAt (V c main_v80) (V c main_v81) r q := by
    show biasReluAt _ _ ⟨win3_2.index t (0 : Fin 2) * 10000 + 1 * p.val, _⟩ ⟨win3_2.index t (1 : Fin 2) * 64 + 1 * q.val, _⟩ = _
    congr 1
    · exact Fin.ext (by show win3_2.index t (0 : Fin 2) * 10000 + 1 * p.val = win3_2.index t (0 : Fin 2) * 10000 + p.val; omega)
    · exact Fin.ext (by show win3_2.index t (1 : Fin 2) * 64 + 1 * q.val = q.val; omega)
  refine Eq.trans ?_ ((biasReluAt_block (V c main_v80) (V c main_v81) (iblk3 V c 0 t) p q r hX).trans hr.symm)
  exact clamp_congr _ (hb _)

/-- An index of the output array is in point t's block iff each coordinate is in the block's range. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v82).slice (win3_2.rect t)).set ↔ _
  rw [View.set_slice_whole, Rect.mem_set_unit]
  exact Iff.rfl

/-- Row r lies in the block of the point whose row block is r / 10000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- THE OUTPUT ARRAY after the last point: `biasRelu` of the operand arrays as the kernel found them. -/
theorem final3 (c : Dev nD) :
    (dat3 V c).arrAt 2 cfg3.N = biasRelu (V c main_v80) (V c main_v81) :=
  (dat3 V c).arrAt_eq_of_cover 2 _ (fun t _ => flushed3 V c t) cover3

end Cert.KernelIdeal.Gcn

end
-- ==== Proof.Region4.lean ====
/-
  The final linear kernel (inner extent 64, a real bias row): its output array after the last grid point.

  Ten points, point t staging rows 10000·t … of the activations with the whole weight and bias row and writing back
  the same rows of the logits; the blocks written are the row blocks of `linear` of the whole arrays and cover
  every row.
-/
import proofs.«103694_j89532888252423_1_alg».proof.Proof.Gen.KernelIdeal.Frame
import proofs.«103694_j89532888252423_1_alg».proof.Proof.Layers
import proofs.«103694_j89532888252423_1_alg».proof.Proof.Payloads

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The index maps over the grid: the row operand's block moves with the output's, along rows only; the weight and
    the bias row stay at block (0, 0); there are ten row blocks. -/
theorem idx4 : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every row block is some point's. -/
theorem onto4 : ∀ q0 : Fin 10, ∃ t : Fin cfg4.N, win4_3.index t = ![q0.val, 0] :=
  (by decide +kernel : ∀ q0 : Fin 10, ∃ t : Fin grid4.N, win4_3.index t = ![q0.val, 0])

/-- What point t writes back is block t of `linear` of the arrays as the kernel finds them. -/
theorem flushed4 (c : Dev nD) (t : Fin cfg4.N) :
    (dat4 V c).flushed 3 t = ((cfg4.win 3).blk t).view.read (Elt Ideal)
      (linear (K := 64) (V c main_v82) (V c main_arg5) (V c main_v83)) := by
  show (cfg4.win 3).cut (grid4.coords t) ((dat4 V c).after 3 t) = _
  rw [after4_3]
  unfold out4_3
  rw [View.canon_unit_zero origin2]
  simp only [View.ld_unit_zero (S := S10000x64) origin2, View.ld_unit_zero (S := S64x64) origin2,
    View.ld_unit_zero (S := S1x64) origin2]
  obtain ⟨e0, e1, e2, e3, e4, e5, e6, e7⟩ := idx4 t
  funext j
  obtain ⟨p, q, rfl⟩ : ∃ (p : Fin 10000) (q : Fin 64), j = ix2 p q := ⟨j 0, j 1, eq_ix2 j⟩
  show k4_pay1 (iblk4 V c 0 t) (iblk4 V c 1 t) (iblk4 V c 2 t) (ix2 p q)
    = linear (K := 64) (V c main_v82) (V c main_arg5) (V c main_v83) (((cfg4.win 3).blk t).view.emb (ix2 p q))
  refine (pay_linear64_b _ _ _ p q).trans ?_
  have hp : p.val < 10000 := p.isLt
  have hq : q.val < 64 := q.isLt
  let r : Fin 100000 := ⟨win4_3.index t (0 : Fin 2) * 10000 + p.val, by omega⟩
  have hW : ∀ y : S64x64.Idx, iblk4 V c 1 t y = V c main_arg5 y := fun y => by
    show V c main_arg5 (((cfg4.win 1).blk t).view.emb y) = V c main_arg5 y
    refine congrArg (V c main_arg5) (funext fun a => Fin.ext ?_)
    match a with
    | ⟨0, _⟩ => show win4_1.index t (0 : Fin 2) * 64 + 1 * (y 0).val = (y 0).val; omega
    | ⟨1, _⟩ => show win4_1.index t (1 : Fin 2) * 64 + 1 * (y 1).val = (y 1).val; omega
  have hb : ∀ y : S1x64.Idx, iblk4 V c 2 t y = V c main_v83 y := fun y => by
    show V c main_v83 (((cfg4.win 2).blk t).view.emb y) = V c main_v83 y
    refine congrArg (V c main_v83) (funext fun a => Fin.ext ?_)
    match a with
    | ⟨0, _⟩ => show win4_2.index t (0 : Fin 2) * 1 + 1 * (y 0).val = (y 0).val; omega
    | ⟨1, _⟩ => show win4_2.index t (1 : Fin 2) * 64 + 1 * (y 1).val = (y 1).val; omega
  have hX : ∀ k : Fin 64, iblk4 V c 0 t (ix2 p k) = V c main_v82 (ix2 r k) := fun k => by
    show V c main_v82 (((cfg4.win 0).blk t).view.emb (ix2 p k)) = V c main_v82 (ix2 r k)
    refine congrArg (V c main_v82) (funext fun a => Fin.ext ?_)
    match a with
    | ⟨0, _⟩ => show win4_0.index t (0 : Fin 2) * 10000 + 1 * p.val = win4_3.index t (0 : Fin 2) * 10000 + p.val; omega
    | ⟨1, _⟩ => show win4_0.index t (1 : Fin 2) * 64 + 1 * k.val = k.val; omega
  have hr : linear (K := 64) (V c main_v82) (V c main_arg5) (V c main_v83) (((cfg4.win 3).blk t).view.emb (ix2 p q))
      = linearAt (V c main_v82) (V c main_arg5) (V c main_v83) r q := by
    show linearAt _ _ _ ⟨win4_3.index t (0 : Fin 2) * 10000 + 1 * p.val, _⟩ ⟨win4_3.index t (1 : Fin 2) * 64 + 1 * q.val, _⟩ = _
    congr 1
    · exact Fin.ext (by show win4_3.index t (0 : Fin 2) * 10000 + 1 * p.val = win4_3.index t (0 : Fin 2) * 10000 + p.val; omega)
    · exact Fin.ext (by show win4_3.index t (1 : Fin 2) * 64 + 1 * q.val = q.val; omega)
  refine Eq.trans ?_ ((linearAt_block (V c main_v82) (V c main_arg5) (V c main_v83) (iblk4 V c 0 t) p q r hX).trans hr.symm)
  exact congrArg₂ (· + ·)
    (Finset.sum_congr rfl fun k _ => mul_right_congr _ (hW (ix2 k q))) (hb _)

/-- An index of the output array is in point t's block iff each coordinate is in the block's range. -/
theorem mem_blk4 (t : Fin cfg4.N) (i : S100000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v84).slice (win4_3.rect t)).set ↔ _
  rw [View.set_slice_whole, Rect.mem_set_unit]
  exact Iff.rfl

/-- Row r lies in the block of the point whose row block is r / 10000. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := onto4 ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- THE OUTPUT ARRAY after the last point: `linear` of the operand arrays as the kernel found them. -/
theorem final4 (c : Dev nD) :
    (dat4 V c).arrAt 3 cfg4.N = linear (K := 64) (V c main_v82) (V c main_arg5) (V c main_v83) :=
  (dat4 V c).arrAt_eq_of_cover 3 _ (fun t _ => flushed4 V c t) cover4

end Cert.KernelIdeal.Gcn

end
-- ==== Proof.DenseLaws.lean ====
/-
  The host's spellings of the two dense layers.

  On the host a layer is written with whole-array operations: a `dot_general` of the rows with the weight, a bias
  vector laid out as a [1, 64] row and repeated over the rows, an entrywise sum, an entrywise maximum with a repeated
  zero. Index by index these are the functions of Layers.lean: the `dot_general` is ∑ₖ X(r, k) · W(k, c), the repeated
  row reads b(0, c), the repeated scalar reads the word for zero. A projection that adds a zero row is the plain
  product, because x + 0 = x for every extended real (the one law used; it needs nothing finite).
-/
import proofs.«103694_j89532888252423_1_alg».proof.Proof.Layers
import proofs.«103694_j89532888252423_1_alg».proof.Proof.LibPlainDot
import Idealize.ShloMosaic.Lib.Pipeline.Value
import Idealize.ShloMosaic.Lib.ValueIdx

noncomputable section

namespace Cert.Gcn

open Idealize.ShloMosaic Idealize.ShloMosaic.ValueIdx

variable {K : Nat}

/-- A one-row array repeated over 100000 rows, read at (r, c): the row's entry (0, c). -/
theorem rows_apply (h : (⟨2, ![1, 64]⟩ : Shape).BroadcastsInDim ⟨2, ![100000, 64]⟩ ![0, 1])
    (b : FVec Ideal ⟨2, ![1, 64]⟩ .f32) (r : Fin 100000) (c : Fin 64) :
    broadcastInDim ⟨2, ![100000, 64]⟩ ![0, 1] h b (ix2 r c) = b (ix2 (0 : Fin 1) c) :=
  broadcastInDim_apply ![0, 1] h b (ix2 r c) (ix2 (0 : Fin 1) c) (fun a => by
    match a with
    | ⟨0, _⟩ => show 0 = if (1 : Nat) = 1 then 0 else r.val; rw [if_pos rfl]
    | ⟨1, _⟩ => show c.val = if (64 : Nat) = 1 then 0 else c.val; rw [if_neg (by decide)])

/-- A scalar repeated over the whole array, read anywhere: the scalar. -/
theorem splat_apply (h : (⟨0, ![]⟩ : Shape).BroadcastsInDim ⟨2, ![100000, 64]⟩ ![])
    (z : FVec Ideal ⟨0, ![]⟩ .f32) (i : (⟨2, ![100000, 64]⟩ : Shape).Idx) :
    broadcastInDim ⟨2, ![100000, 64]⟩ ![] h z i = z ix0 :=
  broadcastInDim_apply ![] h z i ix0 (fun a => a.elim0)

/-- The plain product of the rows with the weight is `linear` with a bias row of zeros. -/
theorem dotGeneral_eq_linear (wf : DotDims.WF (⟨2, ![100000, K]⟩ : Shape) ⟨2, ![K, 64]⟩ ⟨2, ![100000, 64]⟩ [1] [0] [0] [1] [] [])
    (prec : Option ContractPrecision) (sched : HostSchedule)
    (X : FVec Ideal ⟨2, ![100000, K]⟩ .f32) (W : FVec Ideal ⟨2, ![K, 64]⟩ .f32) (z : FVec Ideal ⟨2, ![1, 64]⟩ .f32)
    (hz : ∀ c : Fin 64, z (ix2 (0 : Fin 1) c) = 0) :
    FloatOps.dotGeneral (Cert.LibPlainDot.dims wf) prec sched X W = linear X W z := by
  funext i
  obtain ⟨r, c, rfl⟩ : ∃ (r : Fin 100000) (c : Fin 64), i = ix2 r c := ⟨i 0, i 1, eq_ix2 i⟩
  rw [Cert.LibPlainDot.dotGeneral_apply, linear_apply]
  unfold linearAt
  rw [hz c, add_zero]

/-- The product plus the repeated bias row is `linear`. -/
theorem dotGeneral_add_rows_eq_linear (wf : DotDims.WF (⟨2, ![100000, K]⟩ : Shape) ⟨2, ![K, 64]⟩ ⟨2, ![100000, 64]⟩ [1] [0] [0] [1] [] [])
    (prec : Option ContractPrecision) (sched : HostSchedule)
    (h : (⟨2, ![1, 64]⟩ : Shape).BroadcastsInDim ⟨2, ![100000, 64]⟩ ![0, 1])
    (X : FVec Ideal ⟨2, ![100000, K]⟩ .f32) (W : FVec Ideal ⟨2, ![K, 64]⟩ .f32) (b : FVec Ideal ⟨2, ![1, 64]⟩ .f32) :
    addf (FloatOps.dotGeneral (Cert.LibPlainDot.dims wf) prec sched X W) (broadcastInDim ⟨2, ![100000, 64]⟩ ![0, 1] h b)
      = linear X W b := by
  funext i
  obtain ⟨r, c, rfl⟩ : ∃ (r : Fin 100000) (c : Fin 64), i = ix2 r c := ⟨i 0, i 1, eq_ix2 i⟩
  rw [addf_apply, Cert.LibPlainDot.dotGeneral_apply, rows_apply, linear_apply]
  rfl

/-- The maximum of (A plus the repeated bias row) with the repeated zero word is `biasRelu`. -/
theorem max_add_rows_eq_biasRelu (h : (⟨2, ![1, 64]⟩ : Shape).BroadcastsInDim ⟨2, ![100000, 64]⟩ ![0, 1])
    (h0 : (⟨0, ![]⟩ : Shape).BroadcastsInDim ⟨2, ![100000, 64]⟩ ![])
    (A : FVec Ideal ⟨2, ![100000, 64]⟩ .f32) (b : FVec Ideal ⟨2, ![1, 64]⟩ .f32) :
    maximumf (addf A (broadcastInDim ⟨2, ![100000, 64]⟩ ![0, 1] h b))
        (broadcastInDim ⟨2, ![100000, 64]⟩ ![] h0 (constant (F := Ideal) ⟨0, ![]⟩ .f32 0x00000000#32))
      = biasRelu A b := by
  funext i
  obtain ⟨r, c, rfl⟩ : ∃ (r : Fin 100000) (c : Fin 64), i = ix2 r c := ⟨i 0, i 1, eq_ix2 i⟩
  rw [maximumf_apply, addf_apply, rows_apply, splat_apply, biasRelu_apply]
  rfl

/-- `linear` and `biasRelu` depend on their operands only. -/
theorem linear_congr {X X' : FVec Ideal ⟨2, ![100000, K]⟩ .f32} {W W' : FVec Ideal ⟨2, ![K, 64]⟩ .f32}
    {b b' : FVec Ideal ⟨2, ![1, 64]⟩ .f32} (h1 : X = X') (h2 : W = W') (h3 : b = b') : linear X W b = linear X' W' b' := by
  subst h1 h2 h3; rfl

theorem biasRelu_congr {A A' : FVec Ideal ⟨2, ![100000, 64]⟩ .f32} {b b' : FVec Ideal ⟨2, ![1, 64]⟩ .f32}
    (h1 : A = A') (h2 : b = b') : biasRelu A b = biasRelu A' b' := by
  subst h1 h2; rfl

end Cert.Gcn

end
-- ==== Proof.KernelValue.lean ====
/-
  The idealized kernel program's two results as functions of its arguments.

  Reading the segments in order: the first kernel leaves the projection of the node features (a zero bias row
  added), the stretch after it aggregates that over the graph, the second kernel adds the first bias and clamps, the
  third projects again, the stretch after it aggregates again, the fourth adds the second bias and clamps — that array
  is the first result — and the fifth applies the final affine map to it, giving the second result. Every operand a
  segment reads is what an earlier segment left or an argument as launched.
-/
import proofs.«103694_j89532888252423_1_alg».proof.Proof.KernelRun
import proofs.«103694_j89532888252423_1_alg».proof.Proof.Keeps
import proofs.«103694_j89532888252423_1_alg».proof.Proof.Stretches
import proofs.«103694_j89532888252423_1_alg».proof.Proof.Region0
import proofs.«103694_j89532888252423_1_alg».proof.Proof.Region1
import proofs.«103694_j89532888252423_1_alg».proof.Proof.Region2
import proofs.«103694_j89532888252423_1_alg».proof.Proof.Region3
import proofs.«103694_j89532888252423_1_alg».proof.Proof.Region4
import proofs.«103694_j89532888252423_1_alg».proof.Proof.DenseLaws

set_option maxRecDepth 16384

noncomputable section

namespace Cert.KernelIdeal.Gcn

open Idealize.ShloMosaic Idealize.ShloMosaic.TcCoe Idealize.SL.Sem
open Cert.KernelIdeal Cert.KernelIdeal.Gen Cert.Gcn

/-- One round of message passing depends on its operands only. -/
theorem aggregate_congr {s s' d d' : IArr S1700000} {n n' : FArr S100000} {P P' : FArr S100000x64}
    (h1 : s = s') (h2 : d = d') (h3 : n = n') (h4 : P = P') : aggregate s d n P = aggregate s' d' n' P' := by
  subst h1 h2 h3 h4; rfl

variable (m : (ℓ : Loc nD τ sig) → Buf (Elt Ideal) ℓ) (ρ : Dev nD → PrngReg) (c : Dev nD)

/-- The first projection. -/
theorem proj1_eq : W2 m ρ c (Proc.devRef .tc main_v19) = linear (K := 128) (m ((c : Thread nD τ).loc main_arg0)) (m ((c : Thread nD τ).loc main_arg1)) zeroRow :=
  (W2_arr m ρ c 3).trans ((final0 (V1 m ρ) c).trans (linear_congr (x_at1 m ρ c) (w1_at1 m ρ c) (first_zeroRow m ρ c)))

/-- Its aggregate over the graph. -/
theorem agg1_eq : W3 m ρ c (Proc.devRef .tc main_v47)
    = aggregate (src (m ((c : Thread nD τ).loc main_arg7))) (dst (m ((c : Thread nD τ).loc main_arg7))) (dinv (m ((c : Thread nD τ).loc main_arg7))) (linear (K := 128) (m ((c : Thread nD τ).loc main_arg0)) (m ((c : Thread nD τ).loc main_arg1)) zeroRow) :=
  (second_aggregate m ρ c).trans (aggregate_congr ((src_at2 m ρ c).trans (first_src m ρ c)) ((dst_at2 m ρ c).trans (first_dst m ρ c))
    ((dinv_at2 m ρ c).trans (first_dinv m ρ c)) (proj1_eq m ρ c))

/-- The first bias as a row. -/
theorem row1_eq : W3 m ρ c (Proc.devRef .tc main_v48) = rowOf (m ((c : Thread nD τ).loc main_arg2)) :=
  (second_row m ρ c).trans (congrArg rowOf (b1_at2 m ρ c))

/-- The first layer's activations. -/
theorem h1_eq : W4 m ρ c (Proc.devRef .tc main_v49)
    = biasRelu (aggregate (src (m ((c : Thread nD τ).loc main_arg7))) (dst (m ((c : Thread nD τ).loc main_arg7))) (dinv (m ((c : Thread nD τ).loc main_arg7))) (linear (K := 128) (m ((c : Thread nD τ).loc main_arg0)) (m ((c : Thread nD τ).loc main_arg1)) zeroRow)) (rowOf (m ((c : Thread nD τ).loc main_arg2))) :=
  (W4_arr m ρ c 2).trans ((final1 (V3 m ρ) c).trans (biasRelu_congr (agg1_eq m ρ c) (row1_eq m ρ c)))

/-- The second projection. -/
theorem proj2_eq : W6 m ρ c (Proc.devRef .tc main_v52)
    = linear (K := 64) (biasRelu (aggregate (src (m ((c : Thread nD τ).loc main_arg7))) (dst (m ((c : Thread nD τ).loc main_arg7))) (dinv (m ((c : Thread nD τ).loc main_arg7))) (linear (K := 128) (m ((c : Thread nD τ).loc main_arg0)) (m ((c : Thread nD τ).loc main_arg1)) zeroRow)) (rowOf (m ((c : Thread nD τ).loc main_arg2))))
        (m ((c : Thread nD τ).loc main_arg3)) zeroRow :=
  (W6_arr m ρ c 3).trans ((final2 (V5 m ρ) c).trans
    (linear_congr ((h1_at5 m ρ c).trans (h1_eq m ρ c)) (w2_at5 m ρ c) (third_zeroRow m ρ c)))

/-- The second bias as a row. -/
theorem row2_eq : W7 m ρ c (Proc.devRef .tc main_v81) = rowOf (m ((c : Thread nD τ).loc main_arg4)) :=
  (fourth_row m ρ c).trans (congrArg rowOf (b2_at6 m ρ c))

/-- The second layer's activations, where the fourth kernel leaves them. -/
theorem h2_eq : W8 m ρ c (Proc.devRef .tc main_v82) = embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  (W8_arr m ρ c 2).trans ((final3 (V7 m ρ) c).trans (biasRelu_congr
    ((fourth_aggregate m ρ c).trans (aggregate_congr ((src_at6 m ρ c).trans (first_src m ρ c)) ((dst_at6 m ρ c).trans (first_dst m ρ c))
      ((dinv_at6 m ρ c).trans (first_dinv m ρ c)) (proj2_eq m ρ c)))
    (row2_eq m ρ c)))

/-- THE FIRST RESULT: the second layer's activations. -/
theorem embedding_eq : W10 m ρ c (Proc.devRef .tc main_v82) = embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  (h2_at10 m ρ c).trans (h2_eq m ρ c)

/-- The final bias as a row. -/
theorem rowf_eq : W9 m ρ c (Proc.devRef .tc main_v83) = rowOf (m ((c : Thread nD τ).loc main_arg6)) :=
  (fifth_row m ρ c).trans (congrArg rowOf (bf_at8 m ρ c))

/-- THE SECOND RESULT: the logits. -/
theorem logits_eq : W10 m ρ c (Proc.devRef .tc main_v84)
    = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 3).trans ((final4 (V9 m ρ) c).trans
    (linear_congr ((h2_at9 m ρ c).trans (h2_eq m ρ c)) (wf_at9 m ρ c) (rowf_eq m ρ c)))

/-- The program's run: every weakly fair execution terminates without a fault with the two results at `embedding`
    and `logits` of the arguments as launched, and the arguments unchanged. -/
theorem run : θ_run defs (onTc (τ := τ) (main (F := Ideal))) ⟨m, fun _ => 0, ρ⟩ (fun r => ∀ c : Dev nD,
      r.2.mem ((c.tc : Thread nD τ).loc main_v82) = embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))
      ∧ r.2.mem ((c.tc : Thread nD τ).loc main_v84) = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (embedding_eq m ρ c), (h c).2.1.trans (logits_eq m ρ c), (h c).2.2⟩)
    (run_results m ρ)

end Cert.KernelIdeal.Gcn

end
-- ==== Proof.ZeroRow.lean ====
/-
  The zero bias row is zero.

  The two hidden projections add a bias row made by repeating the word of +0.0 over 64 entries and laying the vector
  out as a row; every entry of that row is the extended real 0.
-/
import proofs.«103694_j89532888252423_1_alg».proof.Proof.HostParts
import proofs.«103694_j89532888252423_1_alg».proof.Proof.LibColRow
import Idealize.ShloMosaic.Lib.Pipeline.Value
import Idealize.ShloMosaic.PureOps.Ideal.Laws

noncomputable section

namespace Cert.KernelIdeal.Gcn

open Idealize.ShloMosaic Idealize.ShloMosaic.ValueIdx Cert.KernelIdeal Cert.KernelIdeal.Facts₀ Cert.KernelIdeal.Facts Cert.Gcn

/-- Entry (0, c) of the zero row is 0. -/
theorem zeroRow_apply (c : Fin 64) : zeroRow (ix2 (0 : Fin 1) c) = 0 := by
  unfold zeroRow rowOf
  refine (Cert.LibColRow.shapeCast_row_apply shapeCasts_S64_S1x64 _ (0 : Fin 1) c).trans ?_
  refine (broadcastInDim_apply ![] bcast_S_S64 _ (ix1 c) ix0 (fun a => a.elim0)).trans ?_
  exact Ideal.ofBits_zero_f32

end Cert.KernelIdeal.Gcn

end
-- ==== Proof.LibBiasRow.lean ====
/-
  A vector of length a laid out as the one row of a [1, a] array: the reshape [a] → [1, a] and the broadcast along
  axis 1 of [1, a] are the same array, entry (0, q) being entry q of the vector. General in a and the element type.
-/
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

/-- The reshape of a length-a vector to [1, a] is its broadcast into [1, a] along axis 1. -/
theorem shapeCast_eq_broadcastInDim {a : ℕ} {α : Type} (b : (⟨1, ![a]⟩ : Shape).Idx → α)
    (h : (⟨1, ![a]⟩ : Shape).ShapeCasts ⟨2, ![1, a]⟩) (h' : (⟨1, ![a]⟩ : Shape).BroadcastsInDim ⟨2, ![1, a]⟩ ![1]) :
    shapeCast ⟨2, ![1, a]⟩ b h = broadcastInDim ⟨2, ![1, a]⟩ ![1] h' b := by
  funext j
  obtain ⟨u, q, rfl⟩ : ∃ (u : Fin 1) (q : Fin a), j = ix2 u q := ⟨j 0, j 1, eq_ix2 j⟩
  rw [shapeCast_a_1a_apply, broadcastInDim_apply ![1] h' b (ix2 u q) (ix1 q) (fun ax => by
    match ax with
    | ⟨0, _⟩ =>
      show q.val = if a = 1 then 0 else q.val
      split
      · have := q.isLt; omega
      · rfl)]

end Cert.LibBiasRow

end
-- ==== Proof.RefValue.lean ====
/-
  The idealized reference computes the same two functions.

  The reference is the same network written with whole-array host operations. Its two hidden layers project with a
  plain `dot_general` (no zero row added), aggregate with the very same gather, scale and scatter-add operations on the
  same edge list, then add the bias vector — laid out as a row by a broadcast where the kernel program reshapes it —
  and clamp with an entrywise maximum; its last layer is a `dot_general` plus the repeated bias row. Stage by stage
  these are `linear` with the zero row, `aggregate`, `biasRelu` and `linear` of Layers.lean and HostParts.lean, so its
  results are `embedding` and `logits` of its arguments.
-/
import proofs.«103694_j89532888252423_1_alg».proof.Proof.Gen.ReferenceIdeal.Read
import proofs.«103694_j89532888252423_1_alg».proof.Proof.HostParts
import proofs.«103694_j89532888252423_1_alg».proof.Proof.ZeroRow
import proofs.«103694_j89532888252423_1_alg».proof.Proof.DenseLaws
import proofs.«103694_j89532888252423_1_alg».proof.Proof.LibBiasRow

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.Gcn

variable (x0 : (⟨S100000x128, .f32⟩ : BufTy).Contents (Elt Ideal)) (x1 : (⟨S128x64, .f32⟩ : BufTy).Contents (Elt Ideal))
  (x2 : (⟨S64, .f32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S2x1600000, .i32⟩ : BufTy).Contents (Elt Ideal))

/-- A bias vector broadcast into a one-row array is the vector laid out as a row. -/
theorem row_eq (b : (⟨S64, .f32⟩ : BufTy).Contents (Elt Ideal)) :
    broadcastInDim S1x64 ![1] bcast_S64_S1x64_1 b = Cert.KernelIdeal.Gcn.rowOf b :=
  (Cert.LibBiasRow.shapeCast_eq_broadcastInDim (a := 64) b _ bcast_S64_S1x64_1).symm

/-- The reference's first projection is `linear` with the zero row. -/
theorem proj1_eq : val_main_v17 (F := Ideal) x0 x1 = linear (K := 128) x0 x1 Cert.KernelIdeal.Gcn.zeroRow :=
  dotGeneral_eq_linear (K := 128) dot_S100000x128_S128x64_S100000x64_1_0_0_1_n_n.wf none .single x0 x1 Cert.KernelIdeal.Gcn.zeroRow Cert.KernelIdeal.Gcn.zeroRow_apply

/-- The reference's first round of message passing is `aggregate` of its first projection: the same operations on the
    same edge list. -/
theorem agg1_eq : val_main_v45 (F := Ideal) x0 x1 x7
    = Cert.KernelIdeal.Gcn.aggregate (Cert.KernelIdeal.Gcn.src x7) (Cert.KernelIdeal.Gcn.dst x7) (Cert.KernelIdeal.Gcn.dinv x7) (val_main_v17 (F := Ideal) x0 x1) := rfl

/-- The reference's first layer. -/
theorem h1_eq : val_main_v49 (F := Ideal) x0 x1 x2 x7
    = biasRelu (Cert.KernelIdeal.Gcn.aggregate (Cert.KernelIdeal.Gcn.src x7) (Cert.KernelIdeal.Gcn.dst x7) (Cert.KernelIdeal.Gcn.dinv x7) (linear (K := 128) x0 x1 Cert.KernelIdeal.Gcn.zeroRow)) (Cert.KernelIdeal.Gcn.rowOf x2) := by
  have e1 : val_main_v49 (F := Ideal) x0 x1 x2 x7
      = maximumf (addf (val_main_v45 (F := Ideal) x0 x1 x7)
            (broadcastInDim S100000x64 ![0, 1] bcast_S1x64_S100000x64_0_1 (broadcastInDim S1x64 ![1] bcast_S64_S1x64_1 x2)))
          (broadcastInDim S100000x64 ![] bcast_S_S100000x64 (constant (F := Ideal) S_ .f32 0x00000000#32)) := rfl
  have e2 : maximumf (addf (val_main_v45 (F := Ideal) x0 x1 x7)
            (broadcastInDim S100000x64 ![0, 1] bcast_S1x64_S100000x64_0_1 (broadcastInDim S1x64 ![1] bcast_S64_S1x64_1 x2)))
          (broadcastInDim S100000x64 ![] bcast_S_S100000x64 (constant (F := Ideal) S_ .f32 0x00000000#32))
      = biasRelu (val_main_v45 (F := Ideal) x0 x1 x7) (broadcastInDim S1x64 ![1] bcast_S64_S1x64_1 x2) :=
    max_add_rows_eq_biasRelu bcast_S1x64_S100000x64_0_1 bcast_S_S100000x64 _ _
  have e3 : val_main_v45 (F := Ideal) x0 x1 x7 = Cert.KernelIdeal.Gcn.aggregate (Cert.KernelIdeal.Gcn.src x7) (Cert.KernelIdeal.Gcn.dst x7) (Cert.KernelIdeal.Gcn.dinv x7) (linear (K := 128) x0 x1 Cert.KernelIdeal.Gcn.zeroRow) :=
    (agg1_eq x0 x1 x7).trans (congrArg (Cert.KernelIdeal.Gcn.aggregate (Cert.KernelIdeal.Gcn.src x7) (Cert.KernelIdeal.Gcn.dst x7) (Cert.KernelIdeal.Gcn.dinv x7)) (proj1_eq x0 x1))
  exact e1.trans (e2.trans (biasRelu_congr e3 (row_eq x2)))

/-- The reference's second projection. -/
theorem proj2_eq : val_main_v50 (F := Ideal) x0 x1 x2 x3 x7
    = linear (K := 64) (val_main_v49 (F := Ideal) x0 x1 x2 x7) x3 Cert.KernelIdeal.Gcn.zeroRow :=
  dotGeneral_eq_linear (K := 64) dot_S100000x64_S64x64_S100000x64_1_0_0_1_n_n.wf none .single _ x3 Cert.KernelIdeal.Gcn.zeroRow Cert.KernelIdeal.Gcn.zeroRow_apply

/-- The reference's second round of message passing. -/
theorem agg2_eq : val_main_v78 (F := Ideal) x0 x1 x2 x3 x7
    = Cert.KernelIdeal.Gcn.aggregate (Cert.KernelIdeal.Gcn.src x7) (Cert.KernelIdeal.Gcn.dst x7) (Cert.KernelIdeal.Gcn.dinv x7) (val_main_v50 (F := Ideal) x0 x1 x2 x3 x7) := rfl

/-- THE FIRST RESULT of the reference is `embedding` of its arguments. -/
theorem embedding_eq : val_main_v82 (F := Ideal) x0 x1 x2 x3 x4 x7 = Cert.KernelIdeal.Gcn.embedding x0 x1 x2 x3 x4 x7 := by
  have e1 : val_main_v82 (F := Ideal) x0 x1 x2 x3 x4 x7
      = maximumf (addf (val_main_v78 (F := Ideal) x0 x1 x2 x3 x7)
            (broadcastInDim S100000x64 ![0, 1] bcast_S1x64_S100000x64_0_1 (broadcastInDim S1x64 ![1] bcast_S64_S1x64_1 x4)))
          (broadcastInDim S100000x64 ![] bcast_S_S100000x64 (constant (F := Ideal) S_ .f32 0x00000000#32)) := rfl
  have e2 : maximumf (addf (val_main_v78 (F := Ideal) x0 x1 x2 x3 x7)
            (broadcastInDim S100000x64 ![0, 1] bcast_S1x64_S100000x64_0_1 (broadcastInDim S1x64 ![1] bcast_S64_S1x64_1 x4)))
          (broadcastInDim S100000x64 ![] bcast_S_S100000x64 (constant (F := Ideal) S_ .f32 0x00000000#32))
      = biasRelu (val_main_v78 (F := Ideal) x0 x1 x2 x3 x7) (broadcastInDim S1x64 ![1] bcast_S64_S1x64_1 x4) :=
    max_add_rows_eq_biasRelu bcast_S1x64_S100000x64_0_1 bcast_S_S100000x64 _ _
  have e3 : val_main_v50 (F := Ideal) x0 x1 x2 x3 x7
      = linear (K := 64) (biasRelu (Cert.KernelIdeal.Gcn.aggregate (Cert.KernelIdeal.Gcn.src x7) (Cert.KernelIdeal.Gcn.dst x7) (Cert.KernelIdeal.Gcn.dinv x7) (linear (K := 128) x0 x1 Cert.KernelIdeal.Gcn.zeroRow)) (Cert.KernelIdeal.Gcn.rowOf x2)) x3 Cert.KernelIdeal.Gcn.zeroRow :=
    (proj2_eq x0 x1 x2 x3 x7).trans (linear_congr (h1_eq x0 x1 x2 x7) rfl rfl)
  have e4 : val_main_v78 (F := Ideal) x0 x1 x2 x3 x7
      = Cert.KernelIdeal.Gcn.aggregate (Cert.KernelIdeal.Gcn.src x7) (Cert.KernelIdeal.Gcn.dst x7) (Cert.KernelIdeal.Gcn.dinv x7) (linear (K := 64) (biasRelu (Cert.KernelIdeal.Gcn.aggregate (Cert.KernelIdeal.Gcn.src x7) (Cert.KernelIdeal.Gcn.dst x7) (Cert.KernelIdeal.Gcn.dinv x7) (linear (K := 128) x0 x1 Cert.KernelIdeal.Gcn.zeroRow)) (Cert.KernelIdeal.Gcn.rowOf x2)) x3 Cert.KernelIdeal.Gcn.zeroRow) :=
    (agg2_eq x0 x1 x2 x3 x7).trans (congrArg (Cert.KernelIdeal.Gcn.aggregate (Cert.KernelIdeal.Gcn.src x7) (Cert.KernelIdeal.Gcn.dst x7) (Cert.KernelIdeal.Gcn.dinv x7)) e3)
  exact e1.trans (e2.trans (biasRelu_congr e4 (row_eq x4)))

/-- THE SECOND RESULT of the reference is `logits` of its arguments. -/
theorem logits_eq : val_main_v86 (F := Ideal) x0 x1 x2 x3 x4 x5 x6 x7 = Cert.KernelIdeal.Gcn.logits x0 x1 x2 x3 x4 x5 x6 x7 := by
  have e1 : val_main_v86 (F := Ideal) x0 x1 x2 x3 x4 x5 x6 x7
      = addf (Host.dotGeneral (F := Ideal) (φ₁ := .f32) (φ₂ := .f32) dot_S100000x64_S64x64_S100000x64_1_0_0_1_n_n none (val_main_v82 (F := Ideal) x0 x1 x2 x3 x4 x7) x5)
          (broadcastInDim S100000x64 ![0, 1] bcast_S1x64_S100000x64_0_1 (broadcastInDim S1x64 ![1] bcast_S64_S1x64_1 x6)) := rfl
  have e2 : addf (Host.dotGeneral (F := Ideal) (φ₁ := .f32) (φ₂ := .f32) dot_S100000x64_S64x64_S100000x64_1_0_0_1_n_n none (val_main_v82 (F := Ideal) x0 x1 x2 x3 x4 x7) x5)
          (broadcastInDim S100000x64 ![0, 1] bcast_S1x64_S100000x64_0_1 (broadcastInDim S1x64 ![1] bcast_S64_S1x64_1 x6))
      = linear (K := 64) (val_main_v82 (F := Ideal) x0 x1 x2 x3 x4 x7) x5 (broadcastInDim S1x64 ![1] bcast_S64_S1x64_1 x6) :=
    dotGeneral_add_rows_eq_linear (K := 64) dot_S100000x64_S64x64_S100000x64_1_0_0_1_n_n.wf none .single bcast_S1x64_S100000x64_0_1 _ x5 _
  exact e1.trans (e2.trans (linear_congr (embedding_eq x0 x1 x2 x3 x4 x7) rfl (row_eq x6)))

end Cert.ReferenceIdeal.RefValue

end
-- ==== Proof.lean ====
/-
  A two-layer graph convolution network with a final linear layer, as tiled kernels, against its whole-array
  reference: the certificate's claims.

  Both programs compute, from node features x, weights W1, W2, Wfc, biases b1, b2, bfc and an edge list,
      h1 = max (A (x · W1) + b1) 0,   h2 = max (A (h1 · W2) + b2) 0,   logits = h2 · Wfc + bfc,
  where A is one round of normalized message passing over the edges with self loops (gather the source rows, scale by
  the reciprocal square roots of the two in-degrees, scatter-add at the destinations), and return (h2, logits).
  The kernel program runs each product, and each "add the bias and clamp", as a kernel over ten blocks of 10000 rows,
  the hidden products adding a bias row of zeros, and leaves A to host operations; the reference is host operations
  throughout. Over the extended reals the two agree entry by entry: a block of rows of a product is the product of
  that block of rows, the narrower matmul operand format is the identity, x + 0 = x, a reshape of a bias vector to a
  row is its broadcast to a row, and A is literally the same operations on the same edge list in both programs — it is
  never opened. No step reorders a sum or moves a factor, so the precondition's finiteness is not used.

  KernelRun.lean names the kernel program's results in its run; Region0–4.lean read each kernel's output array as
  `linear` or `biasRelu` (Layers.lean) of the arrays it staged; Stretches.lean and Keeps.lean read the host stretches
  and the buffers that pass through; KernelValue.lean composes them into `embedding` and `logits` (HostParts.lean) of
  the arguments; RefValue.lean shows the reference's results are the same two functions.
-/
import proofs.«103694_j89532888252423_1_alg».proof.Defs
import proofs.«103694_j89532888252423_1_alg».proof.Proof.Gen.Kernel
import proofs.«103694_j89532888252423_1_alg».proof.Proof.Gen.Kernel.Skeleton
import proofs.«103694_j89532888252423_1_alg».proof.Proof.Gen.Kernel.Launch
import proofs.«103694_j89532888252423_1_alg».proof.Proof.Gen.Kernel.Points
import proofs.«103694_j89532888252423_1_alg».proof.Proof.Gen.Kernel.Frame
import proofs.«103694_j89532888252423_1_alg».proof.Proof.Gen.KernelIdeal
import proofs.«103694_j89532888252423_1_alg».proof.Proof.Gen.KernelIdeal.Skeleton
import proofs.«103694_j89532888252423_1_alg».proof.Proof.Gen.KernelIdeal.Launch
import proofs.«103694_j89532888252423_1_alg».proof.Proof.Gen.KernelIdeal.Points
import proofs.«103694_j89532888252423_1_alg».proof.Proof.Gen.KernelIdeal.Frame
import proofs.«103694_j89532888252423_1_alg».proof.Proof.Gen.ReferenceIdeal
import proofs.«103694_j89532888252423_1_alg».proof.Proof.Gen.ReferenceIdeal.Run
import proofs.«103694_j89532888252423_1_alg».proof.Proof.Gen.ReferenceIdeal.Read
import proofs.«103694_j89532888252423_1_alg».proof.Proof.Gen.Pre_finite_inputs
import proofs.«103694_j89532888252423_1_alg».proof.Proof.KernelValue
import proofs.«103694_j89532888252423_1_alg».proof.Proof.RefValue
import Idealize.ShloMosaic.Adequacy
import Idealize.ShloMosaic.Init

noncomputable section

namespace Cert.Proof

open Idealize.ShloMosaic Idealize.SL.Sem

/-- The word-level kernel program runs to the end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the idealized reference: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealization is the program's own text read over the extended reals. -/
theorem preserves : Cert.preserves_Kernel_KernelIdeal := trivial

/-- From memories agreeing on the arguments both idealized programs end with the second layer's activations and the
    logits at `embedding` and `logits` of those arguments. -/
theorem algebraic : Cert.algebraic_KernelIdeal_ReferenceIdeal := by
  intro m ρ m' ρ' _ hagree
  refine ⟨fun c => Cert.KernelIdeal.Gcn.embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)),
    fun c => Cert.KernelIdeal.Gcn.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Gcn.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7⟩ := hagree c
    refine (h c).1.trans ?_
    rw [Cert.ReferenceIdeal.Read.val_main_v82_eq, Cert.ReferenceIdeal.RefValue.embedding_eq, a0, a1, a2, a3, a4, a7]
  · obtain ⟨a0, a1, a2, a3, a4, a5, a6, a7⟩ := hagree c
    refine (h c).2.1.trans ?_
    rw [Cert.ReferenceIdeal.Read.val_main_v86_eq, Cert.ReferenceIdeal.RefValue.logits_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
